-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S11008x4096 : Shape := ⟨2, ![11008, 4096]⟩
abbrev S4096x11008 : Shape := ⟨2, ![4096, 11008]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S4096x11008 : S_.BroadcastsInDim S4096x11008 (![] : Fin 0 → Fin S4096x11008.rank)
  reducesTo_S4096x11008_S_d0_1 : S4096x11008.ReducesTo [0, 1] S_

variable [Facts]

def fn_part1 {F : FTy → Type} [FloatOps F] (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  main_v18

def fn {F : FTy → Type} [FloatOps F] (main_arg0 : FVec F S2x2048x4096 .f32) (main_arg1 : FVec F S11008x4096 .f32) (main_arg2 : FVec F S11008x4096 .f32) (main_arg3 : FVec F S4096x11008 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008x4096 .f32 := Host.absf main_arg2
  let main_cst_2 : FVec F S_ .f32 := constant S_ .f32 0x7F800000#32
  let main_v10 : FVec F S11008x4096 .f32 := broadcastInDim S11008x4096 ![] bcast_S_S11008x4096 main_cst_2
  let main_v11 : IVec S11008x4096 1 := cmpf .olt main_v9 main_v10
  let main_c_3 : IVec S_ 1 := constantI S_ 1 1#1
  let main_v12 : IVec S_ 1 := (fun x v => Host.reduce IntOp.andi x v reducesTo_S11008x4096_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_v13 main_v16
-- ==== Kernel.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S512x4096 : Shape := ⟨2, ![512, 4096]⟩
abbrev S256x4096 : Shape := ⟨2, ![256, 4096]⟩
abbrev S4096x256 : Shape := ⟨2, ![4096, 256]⟩
abbrev S512x256 : Shape := ⟨2, ![512, 256]⟩
abbrev S2048x256 : Shape := ⟨2, ![2048, 256]⟩
abbrev S512x2048 : Shape := ⟨2, ![512, 2048]⟩

abbrev nBuf : Space → Nat
  | .hbm => 11
  | .vmem => 10
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S4096x4096, .bf16⟩
  | .hbm, ⟨6, _⟩ => ⟨S11008x4096, .bf16⟩
  | .hbm, ⟨7, _⟩ => ⟨S11008x4096, .bf16⟩
  | .hbm, ⟨8, _⟩ => ⟨S4096x11008, .bf16⟩
  | .hbm, ⟨9, _⟩ => ⟨S4096x4096, .f32⟩
  | .hbm, ⟨10, _⟩ => ⟨S2x2048x4096, .f32⟩
  | .local _ .vmem, ⟨0, _⟩ => ⟨S512x4096, .bf16⟩
  | .local _ .vmem, ⟨1, _⟩ => ⟨S512x4096, .bf16⟩
  | .local _ .vmem, ⟨2, _⟩ => ⟨S256x4096, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S4096x256, .bf16⟩
  | .local _ .vmem, ⟨7, _⟩ => ⟨S4096x256, .bf16⟩
  | .local _ .vmem, ⟨8, _⟩ => ⟨S512x4096, .f32⟩
  | .local _ .vmem, ⟨9, _⟩ => ⟨S512x4096, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S2x2048x4096_S4096x4096 : S2x2048x4096.ShapeCasts S4096x4096
  bitsLt_bf16_f32 : FTy.bits .bf16 < FTy.bits .f32
  shapeCasts_S4096x4096_S2x2048x4096 : S4096x4096.ShapeCasts S2x2048x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x256_S2048x256_0_0 : ∀ a, (![0, 0] : Fin 2 → Nat) a + S2048x256.size a ≤ S4096x256.size a
  h_S2048x256 : 0 < S2048x256.numel
  shapeCasts_S2048x256_S2048x256 : S2048x256.ShapeCasts S2048x256
  inb_S512x4096_S512x2048_0_0 : ∀ a, (![0, 0] : Fin 2 → Nat) a + S512x2048.size a ≤ S512x4096.size a
  h_S512x2048 : 0 < S512x2048.numel
  shapeCasts_S512x2048_S512x2048 : S512x2048.ShapeCasts S512x2048
  inb_S4096x256_S2048x256_2048_0 : ∀ a, (![2048, 0] : Fin 2 → Nat) a + S2048x256.size a ≤ S4096x256.size a
  inb_S512x4096_S512x2048_0_2048 : ∀ a, (![0, 2048] : Fin 2 → Nat) a + S512x2048.size a ≤ S512x4096.size a
  dot_S512x4096_S256x4096_S512x256_1_1_0_0_n_n_wf : DotDims.WF S512x4096 S256x4096 S512x256 [1] [1] [0] [0] [] []
  dot_S512x256_S2048x256_S512x2048_1_1_0_0_n_n_wf : DotDims.WF S512x256 S2048x256 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .bf16 = 32 ∨ (Rect.block (s := S4096x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .bf16 = 32 ∨ (Rect.block (s := S11008x4096) S256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S11008x4096.size a
  hwx0_2 : ∀ i : grid0.Coords, EltTy.bits .bf16 = 32 ∨ (Rect.block (s := S11008x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x256.size a ≤ S4096x11008.size a
  hwx0_3 : ∀ i : grid0.Coords, EltTy.bits .bf16 = 32 ∨ (Rect.block (s := S4096x11008) S4096x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S4096x4096.size a
  hwx0_4 : ∀ i : grid0.Coords, EltTy.bits .f32 = 32 ∨ (Rect.block (s := S4096x4096) S512x4096.size (cc0_transform_4 i) (hinb0_4 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf
def dot_S512x256_S2048x256_S512x2048_1_1_0_0_n_n : DotDims S512x256 S2048x256 S512x2048 where
  lhsContracting := [1]
  rhsContracting := [1]
  lhsNonContracting := [0]
  rhsNonContracting := [0]
  lhsBatch := []
  rhsBatch := []
  wf := dot_S512x256_S2048x256_S512x2048_1_1_0_0_n_n_wf

abbrev win0_0 : Pipeline.Window sig grid0 :=
  Pipeline.Window.ofSpec (Memref.whole main_call0_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S4096x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v5) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x2048x4096 : Shape := ⟨3, ![2, 2048, 4096]⟩
abbrev S11008x4096 : Shape := ⟨2, ![11008, 4096]⟩
abbrev S4096x11008 : Shape := ⟨2, ![4096, 11008]⟩
abbrev S4096x4096 : Shape := ⟨2, ![4096, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S11008x4096, .f32⟩
  | .hbm, ⟨2, _⟩ => ⟨S11008x4096, .f32⟩
  | .hbm, ⟨3, _⟩ => ⟨S4096x11008, .f32⟩
  | .hbm, ⟨4, _⟩ => ⟨S4096x4096, .f32⟩
  | .hbm, ⟨5, _⟩ => ⟨S4096x11008, .f32⟩
  | .hbm, ⟨6, _⟩ => ⟨S4096x11008, .f32⟩
  | .hbm, ⟨7, _⟩ => ⟨S4096x11008, .f32⟩
  | .hbm, ⟨8, _⟩ => ⟨S4096x11008, .f32⟩
  | .hbm, ⟨9, _⟩ => ⟨S_, .f32⟩
  | .hbm, ⟨10, _⟩ => ⟨S4096x11008, .f32⟩
  | .hbm, ⟨11, _⟩ => ⟨S4096x11008, .f32⟩
  | .hbm, ⟨12, _⟩ => ⟨S_, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x11008, .f32⟩
  | .hbm, ⟨17, _⟩ => ⟨S4096x4096, .f32⟩
  | .hbm, ⟨18, _⟩ => ⟨S2x2048x4096, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]

class Facts₀ : Prop where
  shapeCasts_S2x2048x4096_S4096x4096 : S2x2048x4096.ShapeCasts S4096x4096
  bcast_S_S4096x11008 : S_.BroadcastsInDim S4096x11008 (![] : Fin 0 → Fin S4096x11008.rank)
  shapeCasts_S4096x4096_S2x2048x4096 : S4096x4096.ShapeCasts S2x2048x4096
  dot_S4096x4096_S11008x4096_S4096x11008_1_1_0_0_n_n_wf : DotDims.WF S4096x4096 S11008x4096 S4096x11008 [1] [1] [0] [0] [] []
  dot_S4096x11008_S4096x11008_S4096x4096_1_1_0_0_n_n_wf : DotDims.WF S4096x11008 S4096x11008 S4096x4096 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf
def dot_S4096x11008_S4096x11008_S4096x4096_1_1_0_0_n_n : DotDims S4096x11008 S4096x11008 S4096x4096 where
  lhsContracting := [1]
  rhsContracting := [1]
  lhsNonContracting := [0]
  rhsNonContracting := [0]
  lhsBatch := []
  rhsBatch := []
  wf := dot_S4096x11008_S4096x11008_S4096x4096_1_1_0_0_n_n_wf

class Facts : Prop extends Facts₀ where

variable [Facts]
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibResetChain.lean ====
/-
  Finite sums of extended reals, as a grid accumulator meets them.

  * A range of `a * b` consecutive naturals is `a` runs of `b`: the sum over it is the double sum.
  * A sum of NONNEGATIVE extended reals times a constant is the sum of the products.  (On the extended reals
    `(x + y) * k = x * k + y * k` can fail when `x` and `y` are infinities of opposite signs; between nonnegative
    terms there is no such pair.)
  * An accumulator that restarts from `z` at every `P`-th point and otherwise adds the point's term to what the
    point before left holds, after point `n`, `z` plus the terms since the last restart; at the last point of
    run `c` that is `z` plus the run's `P` terms.
-/
import Mathlib.Data.EReal.Operations
import Mathlib.Algebra.BigOperators.Intervals
import Mathlib.Algebra.Order.BigOperators.Group.Finset

namespace Cert.LibResetChain

open Finset

/-- The sum over `a * b` consecutive naturals is the sum over `a` runs of `b`. -/
theorem sum_range_mul {M : Type*} [AddCommMonoid M] (f : ℕ → M) (a b : ℕ) :
    ∑ i ∈ range (a * b), f i = ∑ i ∈ range a, ∑ j ∈ range b, f (i * b + j) := by
  induction a with
  | zero => simp
  | succ a ih => rw [Nat.succ_mul, Finset.sum_range_add, ih, Finset.sum_range_succ]

/-- A finite sum of nonnegative extended reals times a constant is the sum of the products. -/
theorem sum_mul_of_nonneg {ι : Type*} (s : Finset ι) (g : ι → EReal) (k : EReal) (hg : ∀ i ∈ s, 0 ≤ g i) :
    (∑ i ∈ s, g i) * k = ∑ i ∈ s, g i * k := by
  classical
  induction s using Finset.induction_on with
  | empty => simp
  | insert a s ha ih =>
    rw [Finset.sum_insert ha, Finset.sum_insert ha,
      EReal.right_distrib_of_nonneg (hg a (Finset.mem_insert_self a s))
        (Finset.sum_nonneg fun i hi => hg i (Finset.mem_insert_of_mem hi)),
      ih fun i hi => hg i (Finset.mem_insert_of_mem hi)]

/-- The point before a point that is not first in its run is in the same run, one place earlier. -/
theorem pred_div_mod (P : ℕ) (hP : 0 < P) (n q r : ℕ) (h : P * q + r = n + 1) (hlt : r < P) (hne : r ≠ 0) :
    n / P = q ∧ n % P = r - 1 := by
  have hn' : n = P * q + (r - 1) := by omega
  constructor
  · rw [hn', Nat.mul_add_div hP, Nat.div_eq_of_lt (by omega), Nat.add_zero]
  · rw [hn', Nat.mul_add_mod, Nat.mod_eq_of_lt (by omega)]

/-- The restarting accumulator after point `n`: `z` plus the terms of the points since the last restart. -/
theorem chain_closed {M : Type*} [AddCommMonoid M] (P : ℕ) (hP : 0 < P) (acc T : ℕ → M) (z : M) (N : ℕ)
    (h0 : ∀ n, n < N → n % P = 0 → acc n = z + T n)
    (hs : ∀ n, n < N → n % P ≠ 0 → acc n = acc (n - 1) + T n) :
    ∀ n, n < N → acc n = z + ∑ j ∈ range (n % P + 1), T (P * (n / P) + j) := by
  intro n
  induction n with
  | zero =>
    intro hn
    rw [h0 0 hn (Nat.zero_mod P), Nat.zero_mod, Nat.zero_div, Finset.sum_range_one, Nat.mul_zero]
  | succ n ih =>
    intro hn
    have hdm : P * ((n + 1) / P) + (n + 1) % P = n + 1 := Nat.div_add_mod (n + 1) P
    by_cases hm : (n + 1) % P = 0
    · rw [h0 (n + 1) hn hm, hm, Finset.sum_range_one]
      rw [hm, Nat.add_zero] at hdm
      rw [Nat.add_zero, hdm]
    · obtain ⟨hq, hrm⟩ := pred_div_mod P hP n _ _ hdm (Nat.mod_lt _ hP) hm
      have hr : (n + 1) % P - 1 + 1 = (n + 1) % P := Nat.sub_add_cancel (Nat.pos_of_ne_zero hm)
      rw [hs (n + 1) hn hm, Nat.add_sub_cancel, ih (Nat.lt_of_succ_lt hn), hq, hrm, hr,
        Finset.sum_range_succ _ ((n + 1) % P), hdm, add_assoc]

/-- At the last point of run `c` the accumulator holds `z` plus that run's `P` terms. -/
theorem chain_run_end {M : Type*} [AddCommMonoid M] (P : ℕ) (hP : 0 < P) (acc T : ℕ → M) (z : M) (N : ℕ)
    (h0 : ∀ n, n < N → n % P = 0 → acc n = z + T n)
    (hs : ∀ n, n < N → n % P ≠ 0 → acc n = acc (n - 1) + T n) (c : ℕ) (hc : P * c + (P - 1) < N) :
    acc (P * c + (P - 1)) = z + ∑ j ∈ range P, T (P * c + j) := by
  have h1 : (P * c + (P - 1)) % P = P - 1 := by rw [Nat.mul_add_mod, Nat.mod_eq_of_lt (by omega)]
  have h2 : (P * c + (P - 1)) / P = c := by rw [Nat.mul_add_div hP, Nat.div_eq_of_lt (by omega), Nat.add_zero]
  rw [chain_closed P hP acc T z N h0 hs _ hc, h1, h2, Nat.sub_add_cancel hP]

end Cert.LibResetChain
-- ==== Proof.GatedSum.lean ====
/-
  The gated feed-forward layer as plain sums over the extended reals.

  For a token matrix `X` (rows of 4096 features), gate and up weights `G`, `U` (11008 rows of 4096) and a down
  weight `D` (4096 rows of 11008), the layer's entry at token `t` and output feature `e` is

      ∑ f < 11008,  (g · σ(g)) · u · D[e, f]     with  g = ∑ d, X[t, d] · G[f, d],   u = ∑ d, X[t, d] · U[f, d],

  `σ` the logistic function. The hidden axis of 11008 = 43 · 256 features is the disjoint union of 43 runs of 256, so
  the sum over it is the sum, run by run, of the runs' partial sums (`sum_tiles`): only the associativity and
  commutativity of addition on the extended reals, no finiteness.

  Matrices are read at natural coordinates (`rd`: the entry inside the matrix, zero outside), so that a run's
  partial sum is a function of every natural number and a sum over a range can be cut without bound proofs.
-/
import Idealize.ShloMosaic.Lib.ValueIdx
import proofs.«175732_j59279138619703_2_alg».proof.Proof.LibResetChain

noncomputable section

namespace Cert.GatedMlp

open Idealize.ShloMosaic Idealize.ShloMosaic.ValueIdx Finset

/-- A matrix read at natural coordinates: its entry inside, zero outside. -/
def rd {a b : ℕ} (A : (⟨2, ![a, b]⟩ : Shape).Idx → EReal) (r c : ℕ) : EReal :=
  if h : r < a ∧ c < b then A (ix2 ⟨r, h.1⟩ ⟨c, h.2⟩) else 0

/-- Inside the matrix the reading is the entry. -/
theorem rd_of_lt {a b : ℕ} (A : (⟨2, ![a, b]⟩ : Shape).Idx → EReal) (r c : ℕ) (hr : r < a) (hc : c < b) :
    rd A r c = A (ix2 ⟨r, hr⟩ ⟨c, hc⟩) := dif_pos ⟨hr, hc⟩

/-- At an index of the matrix the reading is the entry. -/
theorem rd_ix2 {a b : ℕ} (A : (⟨2, ![a, b]⟩ : Shape).Idx → EReal) (r : Fin a) (c : Fin b) :
    rd A r.val c.val = A (ix2 r c) := rd_of_lt A r.val c.val r.isLt c.isLt

/-- Row `t` of `A` against row `f` of `W`: the inner product over the 4096 shared features. -/
def proj (A W : ℕ → ℕ → EReal) (t f : ℕ) : EReal := ∑ d : Fin 4096, A t d * W f d

/-- The gate's activation `g · σ(g)`. -/
def act (g : EReal) : EReal := g * Ideal.logistic g

/-- The hidden layer at token `t`, hidden feature `f`: the activated gate projection times the up projection. -/
def hid (X G U : ℕ → ℕ → EReal) (t f : ℕ) : EReal := act (proj X G t f) * proj X U t f

/-- The layer's entry at token `t`, output feature `e`: the hidden row against row `e` of the down weight. -/
def full (X G U D : ℕ → ℕ → EReal) (t e : ℕ) : EReal := ∑ f : Fin 11008, hid X G U t f * D e f

/-- The partial sum of grid point `n` — token tile `n / 43`, hidden run `n % 43` — at row `p` of the token tile and
    output feature `e`: the 256 hidden features of the run. -/
def tile (X G U D : ℕ → ℕ → EReal) (n p e : ℕ) : EReal :=
  ∑ f : Fin 256, hid X G U (n / 43 * 512 + p) (n % 43 * 256 + f) * D e (n % 43 * 256 + f)

/-- The 43 partial sums of token tile `i` add up to the layer's entry. -/
theorem sum_tiles (X G U D : ℕ → ℕ → EReal) (i p e : ℕ) :
    ∑ j ∈ range 43, tile X G U D (43 * i + j) p e = full X G U D (i * 512 + p) e := by
  unfold full tile
  rw [← Finset.sum_range (fun f => hid X G U (i * 512 + p) f * D e f)]
  refine ((LibResetChain.sum_range_mul (fun f => hid X G U (i * 512 + p) f * D e f) 43 256).trans ?_).symm
  refine Finset.sum_congr rfl fun j hj => ?_
  have hj' : j < 43 := Finset.mem_range.mp hj
  have h1 : (43 * i + j) / 43 = i := by omega
  have h2 : (43 * i + j) % 43 = j := by omega
  rw [h1, h2, Finset.sum_range (fun f => hid X G U (i * 512 + p) (j * 256 + f) * D e (j * 256 + f))]

end Cert.GatedMlp

end
-- ==== Proof.TileValue.lean ====
/-
  The kernel body's arithmetic, read entry by entry at the extended reals.

  One grid point holds a tile `x` of 512 token rows, 256 rows each of the gate and up weights (`wg`, `wu`), and 256
  columns of the down weight `wd` (all 4096 of its rows). The body forms the hidden tile

      h[p, f] = (g · σ(g)) · u,    g = ∑ d, x[p, d] · wg[f, d],    u = ∑ d, x[p, d] · wu[f, d]

  and adds, to each half of the 4096 output columns, the product of `h` with the matching 2048 rows of `wd`:
  entry `(p, e)` of a half grows by `∑ f, h[p, f] · wd_half[e, f]`.
-/
import proofs.«175732_j59279138619703_2_alg».proof.Proof.Gen.KernelIdeal.Skeleton
import proofs.«175732_j59279138619703_2_alg».proof.Proof.LibMatmulZero
import proofs.«175732_j59279138619703_2_alg».proof.Proof.GatedSum
import Idealize.ShloMosaic.Lib.ValueIdx
import Idealize.ShloMosaic.Lib.Pipeline.Value
import Idealize.ShloMosaic.PureOps.Ideal.Laws

noncomputable section

namespace Cert.KernelIdeal.TileValue

open Idealize.ShloMosaic Idealize.ShloMosaic.ValueIdx Cert.KernelIdeal Cert.KernelIdeal.Gen Cert.GatedMlp

/-! The operand coordinates of the two products (each contracts the second axis of both operands). -/

theorem proj_l0 (j : S512x256.Idx) (q : dot_S512x4096_S256x4096_S512x256_1_1_0_0_n_n.contr.Idx) : (dot_S512x4096_S256x4096_S512x256_1_1_0_0_n_n.lhsIdx j q 0).val = (j 0).val := by
  unfold DotDims.lhsIdx
  rw [dif_neg (show ¬(0 : Fin S512x4096.rank) ∈ dot_S512x4096_S256x4096_S512x256_1_1_0_0_n_n.lhsBatch by decide),
    dif_pos (show (0 : Fin S512x4096.rank) ∈ dot_S512x4096_S256x4096_S512x256_1_1_0_0_n_n.lhsNonContracting by decide)]
  rfl
theorem proj_l1 (j : S512x256.Idx) (q : dot_S512x4096_S256x4096_S512x256_1_1_0_0_n_n.contr.Idx) : (dot_S512x4096_S256x4096_S512x256_1_1_0_0_n_n.lhsIdx j q 1).val = (q ⟨0, by decide⟩).val :=
  dot_S512x4096_S256x4096_S512x256_1_1_0_0_n_n.lhsIdx_val_of_single rfl j q
theorem proj_r0 (j : S512x256.Idx) (q : dot_S512x4096_S256x4096_S512x256_1_1_0_0_n_n.contr.Idx) : (dot_S512x4096_S256x4096_S512x256_1_1_0_0_n_n.rhsIdx j q 0).val = (j 1).val := by
  unfold DotDims.rhsIdx
  rw [dif_neg (show ¬(0 : Fin S256x4096.rank) ∈ dot_S512x4096_S256x4096_S512x256_1_1_0_0_n_n.rhsBatch by decide),
    dif_pos (show (0 : Fin S256x4096.rank) ∈ dot_S512x4096_S256x4096_S512x256_1_1_0_0_n_n.rhsNonContracting by decide)]
  rfl
theorem proj_r1 (j : S512x256.Idx) (q : dot_S512x4096_S256x4096_S512x256_1_1_0_0_n_n.contr.Idx) : (dot_S512x4096_S256x4096_S512x256_1_1_0_0_n_n.rhsIdx j q 1).val = (q ⟨0, by decide⟩).val :=
  dot_S512x4096_S256x4096_S512x256_1_1_0_0_n_n.rhsIdx_val_of_single rfl j q

theorem down_l0 (j : S512x2048.Idx) (q : dot_S512x256_S2048x256_S512x2048_1_1_0_0_n_n.contr.Idx) : (dot_S512x256_S2048x256_S512x2048_1_1_0_0_n_n.lhsIdx j q 0).val = (j 0).val := by
  unfold DotDims.lhsIdx
  rw [dif_neg (show ¬(0 : Fin S512x256.rank) ∈ dot_S512x256_S2048x256_S512x2048_1_1_0_0_n_n.lhsBatch by decide),
    dif_pos (show (0 : Fin S512x256.rank) ∈ dot_S512x256_S2048x256_S512x2048_1_1_0_0_n_n.lhsNonContracting by decide)]
  rfl
theorem down_l1 (j : S512x2048.Idx) (q : dot_S512x256_S2048x256_S512x2048_1_1_0_0_n_n.contr.Idx) : (dot_S512x256_S2048x256_S512x2048_1_1_0_0_n_n.lhsIdx j q 1).val = (q ⟨0, by decide⟩).val :=
  dot_S512x256_S2048x256_S512x2048_1_1_0_0_n_n.lhsIdx_val_of_single rfl j q
theorem down_r0 (j : S512x2048.Idx) (q : dot_S512x256_S2048x256_S512x2048_1_1_0_0_n_n.contr.Idx) : (dot_S512x256_S2048x256_S512x2048_1_1_0_0_n_n.rhsIdx j q 0).val = (j 1).val := by
  unfold DotDims.rhsIdx
  rw [dif_neg (show ¬(0 : Fin S2048x256.rank) ∈ dot_S512x256_S2048x256_S512x2048_1_1_0_0_n_n.rhsBatch by decide),
    dif_pos (show (0 : Fin S2048x256.rank) ∈ dot_S512x256_S2048x256_S512x2048_1_1_0_0_n_n.rhsNonContracting by decide)]
  rfl
theorem down_r1 (j : S512x2048.Idx) (q : dot_S512x256_S2048x256_S512x2048_1_1_0_0_n_n.contr.Idx) : (dot_S512x256_S2048x256_S512x2048_1_1_0_0_n_n.rhsIdx j q 1).val = (q ⟨0, by decide⟩).val :=
  dot_S512x256_S2048x256_S512x2048_1_1_0_0_n_n.rhsIdx_val_of_single rfl j q

/-- Rows of a 512-row tile against rows of a 256-row tile: entry `(p, f)` is the two rows' inner product. -/
theorem rows512_apply (x : FVec Ideal S512x4096 .bf16) (w : FVec Ideal S256x4096 .bf16) (p : Fin 512) (f : Fin 256) :
    matmul dot_S512x4096_S256x4096_S512x256_1_1_0_0_n_n none x w (constant (F := Ideal) S512x256 .f32 0x00000000#32) (ix2 p f)
      = ∑ d : Fin 4096, x (ix2 p d) * w (ix2 f d) :=
  Cert.LibMatmulZero.matmul_zero_apply dot_S512x4096_S256x4096_S512x256_1_1_0_0_n_n 4096 rfl rfl x w (ix2 p f)
    (fun d => ix2 p d) (fun d => ix2 f d)
    (fun k a => by
      match a with
      | ⟨0, _⟩ => exact proj_l0 _ _
      | ⟨1, _⟩ => exact (proj_l1 _ _).trans (contrEquiv1_symm_val dot_S512x4096_S256x4096_S512x256_1_1_0_0_n_n 4096 rfl rfl k))
    (fun k a => by
      match a with
      | ⟨0, _⟩ => exact proj_r0 _ _
      | ⟨1, _⟩ => exact (proj_r1 _ _).trans (contrEquiv1_symm_val dot_S512x4096_S256x4096_S512x256_1_1_0_0_n_n 4096 rfl rfl k))

/-- The hidden tile against 2048 rows of the down weight: entry `(p, e)` is the inner product over the 256 hidden
    features of the run. -/
theorem down2048_apply (h : FVec Ideal S512x256 .bf16) (w : FVec Ideal S2048x256 .bf16) (p : Fin 512) (e : Fin 2048) :
    matmul dot_S512x256_S2048x256_S512x2048_1_1_0_0_n_n none h w (constant (F := Ideal) S512x2048 .f32 0x00000000#32) (ix2 p e)
      = ∑ f : Fin 256, h (ix2 p f) * w (ix2 e f) :=
  Cert.LibMatmulZero.matmul_zero_apply dot_S512x256_S2048x256_S512x2048_1_1_0_0_n_n 256 rfl rfl h w (ix2 p e)
    (fun f => ix2 p f) (fun f => ix2 e f)
    (fun k a => by
      match a with
      | ⟨0, _⟩ => exact down_l0 _ _
      | ⟨1, _⟩ => exact (down_l1 _ _).trans (contrEquiv1_symm_val dot_S512x256_S2048x256_S512x2048_1_1_0_0_n_n 256 rfl rfl k))
    (fun k a => by
      match a with
      | ⟨0, _⟩ => exact down_r0 _ _
      | ⟨1, _⟩ => exact (down_r1 _ _).trans (contrEquiv1_symm_val dot_S512x256_S2048x256_S512x2048_1_1_0_0_n_n 256 rfl rfl k))

/-- The hidden tile's entry `(p, f)` as a function of the three loaded tiles. -/
def hidden (x : Vec Ideal S512x4096 .bf16) (wg wu : Vec Ideal S256x4096 .bf16) (p : Fin 512) (f : Fin 256) : EReal :=
  act (∑ d : Fin 4096, x (ix2 p d) * wg (ix2 f d)) * ∑ d : Fin 4096, x (ix2 p d) * wu (ix2 f d)

/-- The body's hidden tile is that function. -/
theorem hidden_apply (x : Vec Ideal S512x4096 .bf16) (wg wu : Vec Ideal S256x4096 .bf16) (p : Fin 512) (f : Fin 256) :
    k0_pay2 (F := Ideal) x wg wu (ix2 p f) = hidden x wg wu p f := by
  unfold k0_pay2 hidden act
  rw [shapeCast_self x, shapeCast_self wg, shapeCast_self wu]
  show (matmul dot_S512x4096_S256x4096_S512x256_1_1_0_0_n_n none x wg (constant (F := Ideal) S512x256 .f32 0x00000000#32) (ix2 p f)
      * Ideal.logistic (matmul dot_S512x4096_S256x4096_S512x256_1_1_0_0_n_n none x wg (constant (F := Ideal) S512x256 .f32 0x00000000#32) (ix2 p f)))
      * matmul dot_S512x4096_S256x4096_S512x256_1_1_0_0_n_n none x wu (constant (F := Ideal) S512x256 .f32 0x00000000#32) (ix2 p f) = _
  rw [rows512_apply, rows512_apply]

/-- What the first half's store holds at `(p, e)`: what was there plus the run's contribution. -/
theorem firstHalf_apply (x : Vec Ideal S512x4096 .bf16) (wg wu : Vec Ideal S256x4096 .bf16)
    (wd : Vec Ideal S2048x256 .bf16) (o : Vec Ideal S512x2048 .f32) (p : Fin 512) (e : Fin 2048) :
    k0_pay3 (F := Ideal) x wg wu wd o (ix2 p e) = o (ix2 p e) + ∑ f : Fin 256, hidden x wg wu p f * wd (ix2 e f) := by
  unfold k0_pay3
  rw [shapeCast_self wd, shapeCast_self o]
  show o (ix2 p e) + matmul dot_S512x256_S2048x256_S512x2048_1_1_0_0_n_n none (k0_pay2 x wg wu) wd (constant (F := Ideal) S512x2048 .f32 0x00000000#32) (ix2 p e) = _
  rw [down2048_apply]
  simp only [hidden_apply]

/-- What the second half's store holds at `(p, e)`: the same, over the other 2048 rows of the down weight. -/
theorem secondHalf_apply (x : Vec Ideal S512x4096 .bf16) (wg wu : Vec Ideal S256x4096 .bf16)
    (wd : Vec Ideal S2048x256 .bf16) (o : Vec Ideal S512x2048 .f32) (p : Fin 512) (e : Fin 2048) :
    k0_pay4 (F := Ideal) x wg wu wd o (ix2 p e) = o (ix2 p e) + ∑ f : Fin 256, hidden x wg wu p f * wd (ix2 e f) := by
  unfold k0_pay4
  rw [shapeCast_self wd, shapeCast_self o]
  show o (ix2 p e) + matmul dot_S512x256_S2048x256_S512x2048_1_1_0_0_n_n none (k0_pay2 x wg wu) wd (constant (F := Ideal) S512x2048 .f32 0x00000000#32) (ix2 p e) = _
  rw [down2048_apply]
  simp only [hidden_apply]

end Cert.KernelIdeal.TileValue

end
-- ==== Proof.LibCanonUnit.lean ====
/-
  Reading, at one index, the contents a list of stores leaves when the NEWEST store went through a unit-stride
  rectangle `[off, off + size)`: an index inside the rectangle reads that store's payload at the index minus the
  offsets; an index that misses the rectangle on some axis reads what the earlier stores left. Two general lemmas over
  `View.canon` (the contents as a function of the pieces alone), for any shape, element type and value family.
-/
import Idealize.ShloMosaic.Lib.Pipeline.Value

noncomputable section

namespace Idealize.ShloMosaic.View

variable {Val : EltTy → Type} {S : Shape} {e : EltTy}

/-- An index `y` at position `x` of the newest piece's unit-stride rectangle (`y a = off a + x a` on every axis)
    reads that piece's payload at `x`, whatever the earlier pieces are. -/
theorem canon_cons_unit_of_mem [∀ e, Nonempty (Val e)] {off size : Fin S.rank → Nat}
    (inb : ∀ a, off a + size a ≤ S.size a) (w : (Rect.unit off size inb).shape.Idx → Val e)
    (L : List (Piece Val S e)) (y : S.Idx) (x : (Rect.unit off size inb).shape.Idx)
    (hx : ∀ a, (y a).val = off a + (x a).val) :
    View.canon ((⟨Rect.unit off size inb, w⟩ : Piece Val S e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` reads what the earlier pieces left. -/
theorem canon_cons_unit_of_not_mem [∀ e, Nonempty (Val e)] {off size : Fin S.rank → Nat}
    (inb : ∀ a, off a + size a ≤ S.size a) (w : (Rect.unit off size inb).shape.Idx → Val e)
    (L : List (Piece Val S e)) (y : S.Idx) (a : Fin S.rank)
    (ha : (y a).val < off a ∨ off a + size a ≤ (y a).val) :
    View.canon ((⟨Rect.unit off size inb, w⟩ : Piece Val S e) :: L) y = View.canon L y :=
  View.canon_cons_of_not_mem _ L (fun h => by
    have h' : y ∈ (Rect.unit off size inb).set := h
    have := (Rect.mem_set_unit.mp h') a
    omega)

end Idealize.ShloMosaic.View

end
-- ==== Proof.LibLoadUnit.lean ====
/-
  A load through a unit-stride rectangle `[off, off + size)`, read at one position: it is the operand at the offsets
  plus the position, axis by axis. One general lemma over `View.ld`, for any shape, element type and value family; the
  companion, for loads, of reading a store through such a rectangle.
-/
import Idealize.ShloMosaic.Lib.Pipeline.Value

noncomputable section

namespace Idealize.ShloMosaic.View

variable {Val : EltTy → Type} {S : Shape} {e : EltTy}

/-- A load through a unit-stride rectangle reads, at position `x`, the operand at the index `y` whose coordinates are
    the offsets plus `x`'s (`y a = off a + x a` on every axis). -/
theorem ld_unit_apply {off size : Fin S.rank → Nat} (inb : ∀ a, off a + size a ≤ S.size a) (X : S.Idx → Val e)
    (x : (Rect.unit off size inb).shape.Idx) (y : S.Idx) (hx : ∀ a, (y a).val = off a + (x a).val) :
    View.ld X (Rect.unit off size inb) x = X y := by
  show X ((Rect.unit off size inb).emb x) = X y
  refine congrArg X (funext fun a => Fin.ext ?_)
  show off a + 1 * (x a).val = (y a).val
  rw [hx a, Nat.one_mul]

end Idealize.ShloMosaic.View

end
-- ==== Proof.StoreValue.lean ====
/-
  What one grid point leaves in the output tile, entry by entry.

  The body writes the 512 × 4096 output tile through its two halves of 2048 columns; each half's store holds what the
  half held before plus the run's contribution `∑ f, h[p, f] · wd[e, f]` (`e` counted over all 4096 columns, the second
  half reading rows 2048 … 4095 of the down-weight tile). At the first point of a run the tile is first filled with
  zeros, so "what it held before" is `0`; at the other points it is what the point before left.
-/
import proofs.«175732_j59279138619703_2_alg».proof.Proof.Gen.KernelIdeal.Frame
import proofs.«175732_j59279138619703_2_alg».proof.Proof.TileValue
import proofs.«175732_j59279138619703_2_alg».proof.Proof.LibCanonUnit
import proofs.«175732_j59279138619703_2_alg».proof.Proof.LibLoadUnit
import Idealize.ShloMosaic.Lib.Tactic

set_option maxRecDepth 16384

noncomputable section

namespace Cert.KernelIdeal.StoreValue

open Idealize.ShloMosaic Idealize.ShloMosaic.TcCoe Idealize.SL.Sem Idealize.ShloMosaic.Tactic Idealize.ShloMosaic.ValueIdx
open Cert.KernelIdeal Cert.KernelIdeal.Gen Cert.KernelIdeal.TileValue

theorem hz : (![0, 0] : Fin 2 → Nat) = fun _ => 0 := funext fun a => by fin_cases a <;> rfl

/-- The run's contribution to entry `(p, e)` of the output tile. -/
def term (x : Vec Ideal S512x4096 .bf16) (wg wu : Vec Ideal S256x4096 .bf16) (wd : Vec Ideal S4096x256 .bf16) (p : Fin 512) (e : Fin 4096) : EReal :=
  ∑ f : Fin 256, hidden x wg wu p f * wd (ix2 e f)

/-- Two stores through the column halves, the second half's last: an entry of the first half reads the first half's
    payload, an entry of the second half the second's, whatever was stored before. -/
theorem canon_halves (w4 w3 : Vec Ideal S512x2048 .f32) (L : List (View.Piece (Elt Ideal) S512x4096 .f32))
    (p : Fin 512) (e : Fin 4096) :
    View.canon ((⟨Rect.unit ![0, 2048] ![512, 2048] inb_S512x4096_S512x2048_0_2048, w4⟩ : View.Piece (Elt Ideal) S512x4096 .f32)
        :: ⟨Rect.unit ![0, 0] ![512, 2048] inb_S512x4096_S512x2048_0_0, w3⟩ :: L) (ix2 p e)
      = if h : e.val < 2048 then w3 (ix2 p ⟨e.val, h⟩) else w4 (ix2 p ⟨e.val - 2048, by have := e.isLt; omega⟩) := by
  by_cases h : e.val < 2048
  · rw [dif_pos h, View.canon_cons_unit_of_not_mem _ _ _ (ix2 p e) 1 (Or.inl h)]
    exact View.canon_cons_unit_of_mem _ _ _ (ix2 p e) (ix2 p ⟨e.val, h⟩) (fun a => by
      match a with
      | ⟨0, _⟩ => show p.val = 0 + p.val; omega
      | ⟨1, _⟩ => show e.val = 0 + e.val; omega)
  · rw [dif_neg h]
    exact View.canon_cons_unit_of_mem _ _ _ (ix2 p e) (ix2 p ⟨e.val - 2048, by have := e.isLt; omega⟩) (fun a => by
      match a with
      | ⟨0, _⟩ => show p.val = 0 + p.val; omega
      | ⟨1, _⟩ => show e.val = 2048 + (e.val - 2048); omega)

/-- The first half's payload over the first 2048 rows of the down-weight tile and the tile's first column half. -/
theorem first_of_loads (x : Vec Ideal S512x4096 .bf16) (wg wu : Vec Ideal S256x4096 .bf16) (wd : Vec Ideal S4096x256 .bf16) (o : Vec Ideal S512x4096 .f32) (p : Fin 512) (e : Fin 4096) (h : e.val < 2048) :
    k0_pay3 (F := Ideal) x wg wu (View.ld wd (Rect.unit ![0, 0] ![2048, 256] inb_S4096x256_S2048x256_0_0))
        (View.ld o (Rect.unit ![0, 0] ![512, 2048] inb_S512x4096_S512x2048_0_0)) (ix2 p ⟨e.val, h⟩)
      = o (ix2 p e) + term x wg wu wd p e := by
  refine (firstHalf_apply x wg wu _ _ p ⟨e.val, h⟩).trans ?_
  unfold term
  have ho : View.ld o (Rect.unit ![0, 0] ![512, 2048] inb_S512x4096_S512x2048_0_0) (ix2 p ⟨e.val, h⟩) = o (ix2 p e) :=
    View.ld_unit_apply inb_S512x4096_S512x2048_0_0 o _ (ix2 p e) (fun a => by
      match a with
      | ⟨0, _⟩ => show p.val = 0 + p.val; omega
      | ⟨1, _⟩ => show e.val = 0 + e.val; omega)
  have hw : ∀ f : Fin 256, View.ld wd (Rect.unit ![0, 0] ![2048, 256] inb_S4096x256_S2048x256_0_0) (ix2 ⟨e.val, h⟩ f)
      = wd (ix2 e f) := fun f =>
    View.ld_unit_apply inb_S4096x256_S2048x256_0_0 wd _ (ix2 e f) (fun a => by
      match a with
      | ⟨0, _⟩ => show e.val = 0 + e.val; omega
      | ⟨1, _⟩ => show f.val = 0 + f.val; omega)
  rw [ho]
  exact congrArg (o (ix2 p e) + ·) (Finset.sum_congr rfl fun f _ => by rw [hw f])

/-- The second half's payload over the last 2048 rows of the down-weight tile and the tile's second column half. -/
theorem second_of_loads (x : Vec Ideal S512x4096 .bf16) (wg wu : Vec Ideal S256x4096 .bf16) (wd : Vec Ideal S4096x256 .bf16) (o : Vec Ideal S512x4096 .f32) (p : Fin 512) (e : Fin 4096) (h : ¬e.val < 2048) :
    k0_pay4 (F := Ideal) x wg wu (View.ld wd (Rect.unit ![2048, 0] ![2048, 256] inb_S4096x256_S2048x256_2048_0))
        (View.ld o (Rect.unit ![0, 2048] ![512, 2048] inb_S512x4096_S512x2048_0_2048)) (ix2 p ⟨e.val - 2048, by have := e.isLt; omega⟩)
      = o (ix2 p e) + term x wg wu wd p e := by
  refine (secondHalf_apply x wg wu _ _ p ⟨e.val - 2048, by have := e.isLt; omega⟩).trans ?_
  unfold term
  have ho : View.ld o (Rect.unit ![0, 2048] ![512, 2048] inb_S512x4096_S512x2048_0_2048)
      (ix2 p (⟨e.val - 2048, by have := e.isLt; omega⟩ : Fin 2048)) = o (ix2 p e) :=
    View.ld_unit_apply inb_S512x4096_S512x2048_0_2048 o _ (ix2 p e) (fun a => by
      match a with
      | ⟨0, _⟩ => show p.val = 0 + p.val; omega
      | ⟨1, _⟩ => show e.val = 2048 + (e.val - 2048); omega)
  have hw : ∀ f : Fin 256, View.ld wd (Rect.unit ![2048, 0] ![2048, 256] inb_S4096x256_S2048x256_2048_0)
      (ix2 (⟨e.val - 2048, by have := e.isLt; omega⟩ : Fin 2048) f) = wd (ix2 e f) := fun f =>
    View.ld_unit_apply inb_S4096x256_S2048x256_2048_0 wd _ (ix2 e f) (fun a => by
      match a with
      | ⟨0, _⟩ => show e.val = 2048 + (e.val - 2048); omega
      | ⟨1, _⟩ => show f.val = 0 + f.val; omega)
  rw [ho]
  exact congrArg (o (ix2 p e) + ·) (Finset.sum_congr rfl fun f _ => by rw [hw f])

/-- A POINT THAT CONTINUES A RUN leaves, at `(p, e)`, what the point before left plus its own contribution. -/
theorem out_B_apply (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S512x4096 .f32) (harg6 : arg6.IsWhole) (hc0 : ¬cond0_0 i)
    (x : Vec Ideal S512x4096 .bf16) (wg wu : Vec Ideal S256x4096 .bf16) (wd : Vec Ideal S4096x256 .bf16) (o : Vec Ideal S512x4096 .f32) (p : Fin 512) (e : Fin 4096) :
    out0_B_4 (F := Ideal) c i arg2 harg2 arg3 harg3 arg4 harg4 arg5 harg5 arg6 harg6 hc0 x wg wu wd o (ix2 p e) = o (ix2 p e) + term x wg wu wd p e := by
  unfold out0_B_4
  rw [View.read_writes_eq_canon _ _ _ (cover0_B_4 c i arg2 harg2 arg3 harg3 arg4 harg4 arg5 harg5 arg6 harg6 hc0 x wg wu wd o)]
  unfold kernelRun0_B
  dsimp only
  sl_unfold_words
  simp only [View.readAt_eq_ld, harg2.read_unread, harg3.read_unread, harg4.read_unread, harg5.read_unread,
    harg6.read_unread, View.ld_unit_zero (S := S512x4096) hz, View.ld_unit_zero (S := S256x4096) hz]
  rw [canon_halves]
  by_cases h : e.val < 2048
  · rw [dif_pos h]; exact first_of_loads x wg wu wd o p e h
  · rw [dif_neg h]; exact second_of_loads x wg wu wd o p e h

/-- The zero tile the first point of a run stores first reads `0` everywhere. -/
theorem zeros_apply (y : S512x4096.Idx) : k0_pay1 (F := Ideal) y = 0 := by
  show Ideal.ofBits .f32 0x00000000#32 = 0
  exact Ideal.ofBits_zero_f32

/-- After one store of the whole tile, a load of the first column half reads that store's payload there. -/
theorem readBack_first (v : View sig .tc .vmem S512x4096 .f32) (w1 : Vec Ideal S512x4096 .f32) :
    v.readCov [(⟨Rect.unit ![0, 0] ![512, 4096] inb_S512x4096_S512x4096_0_0, w1⟩ : View.Piece (Elt Ideal) S512x4096 .f32)]
        (Rect.unit ![0, 0] ![512, 2048] inb_S512x4096_S512x2048_0_0).toLoadRect
      = View.ld w1 (Rect.unit ![0, 0] ![512, 2048] inb_S512x4096_S512x2048_0_0) := by
  have hcov : ∀ y : S512x4096.Idx, ∃ q ∈ [(⟨Rect.unit ![0, 0] ![512, 4096] inb_S512x4096_S512x4096_0_0, w1⟩ : View.Piece (Elt Ideal) S512x4096 .f32)], y ∈ q.1.set := fun y =>
    ⟨(⟨Rect.unit ![0, 0] ![512, 4096] inb_S512x4096_S512x4096_0_0, w1⟩ : View.Piece (Elt Ideal) S512x4096 .f32), List.mem_singleton_self _,
      View.mem_set_unit_zero (S := S512x4096) hz inb_S512x4096_S512x4096_0_0 y⟩
  rw [View.readCov_eq_canon_ld v [(⟨Rect.unit ![0, 0] ![512, 4096] inb_S512x4096_S512x4096_0_0, w1⟩ : View.Piece (Elt Ideal) S512x4096 .f32)] (Rect.unit ![0, 0] ![512, 2048] inb_S512x4096_S512x2048_0_0) hcov,
    View.canon_unit_zero (S := S512x4096) hz]

/-- After a store of the whole tile and then one of the first column half, an entry of the second column half still
    holds the whole-tile store's payload. -/
theorem canon_off_first (w3 : Vec Ideal S512x2048 .f32) (w1 : Vec Ideal S512x4096 .f32) (y : S512x4096.Idx)
    (hy : 2048 ≤ (y 1).val) :
    View.canon [(⟨Rect.unit ![0, 0] ![512, 2048] inb_S512x4096_S512x2048_0_0, w3⟩ : View.Piece (Elt Ideal) S512x4096 .f32), (⟨Rect.unit ![0, 0] ![512, 4096] inb_S512x4096_S512x4096_0_0, w1⟩ : View.Piece (Elt Ideal) S512x4096 .f32)] y = w1 y := by
  rw [View.canon_cons_unit_of_not_mem inb_S512x4096_S512x2048_0_0 w3 [(⟨Rect.unit ![0, 0] ![512, 4096] inb_S512x4096_S512x4096_0_0, w1⟩ : View.Piece (Elt Ideal) S512x4096 .f32)] y 1 (Or.inr hy),
    View.canon_unit_zero (S := S512x4096) hz]

/-- So a load of the second column half, after those two stores, reads the whole-tile store's payload there. -/
theorem readBack_second (v : View sig .tc .vmem S512x4096 .f32) (w3 : Vec Ideal S512x2048 .f32) (w1 : Vec Ideal S512x4096 .f32) :
    v.readCov [(⟨Rect.unit ![0, 0] ![512, 2048] inb_S512x4096_S512x2048_0_0, w3⟩ : View.Piece (Elt Ideal) S512x4096 .f32), (⟨Rect.unit ![0, 0] ![512, 4096] inb_S512x4096_S512x4096_0_0, w1⟩ : View.Piece (Elt Ideal) S512x4096 .f32)]
        (Rect.unit ![0, 2048] ![512, 2048] inb_S512x4096_S512x2048_0_2048).toLoadRect
      = View.ld w1 (Rect.unit ![0, 2048] ![512, 2048] inb_S512x4096_S512x2048_0_2048) := by
  have hcov : ∀ y : S512x4096.Idx, ∃ q ∈ [(⟨Rect.unit ![0, 0] ![512, 2048] inb_S512x4096_S512x2048_0_0, w3⟩ : View.Piece (Elt Ideal) S512x4096 .f32), (⟨Rect.unit ![0, 0] ![512, 4096] inb_S512x4096_S512x4096_0_0, w1⟩ : View.Piece (Elt Ideal) S512x4096 .f32)], y ∈ q.1.set := fun y =>
    ⟨(⟨Rect.unit ![0, 0] ![512, 4096] inb_S512x4096_S512x4096_0_0, w1⟩ : View.Piece (Elt Ideal) S512x4096 .f32), List.mem_cons_of_mem _ (List.mem_singleton_self _),
      View.mem_set_unit_zero (S := S512x4096) hz inb_S512x4096_S512x4096_0_0 y⟩
  rw [View.readCov_eq_canon_ld v [(⟨Rect.unit ![0, 0] ![512, 2048] inb_S512x4096_S512x2048_0_0, w3⟩ : View.Piece (Elt Ideal) S512x4096 .f32), (⟨Rect.unit ![0, 0] ![512, 4096] inb_S512x4096_S512x4096_0_0, w1⟩ : View.Piece (Elt Ideal) S512x4096 .f32)] (Rect.unit (s := S512x4096) ![0, 2048] ![512, 2048] inb_S512x4096_S512x2048_0_2048) hcov]
  refine funext fun x => ?_
  have hy : 2048 ≤ (((Rect.unit (s := S512x4096) ![0, 2048] ![512, 2048] inb_S512x4096_S512x2048_0_2048).emb x) 1).val := by
    show 2048 ≤ 2048 + 1 * (x 1).val
    omega
  exact canon_off_first w3 w1 ((Rect.unit (s := S512x4096) ![0, 2048] ![512, 2048] inb_S512x4096_S512x2048_0_2048).emb x) hy

/-- A POINT THAT STARTS A RUN leaves, at `(p, e)`, zero plus its own contribution: it fills the tile with zeros, and each
    half's store reads the zeros back before adding. -/
theorem out_A_apply (c : Dev nD) (i : grid0.Coords) (arg2 : Memref sig .tc .vmem S512x4096 .bf16) (harg2 : arg2.IsWhole) (arg3 : Memref sig .tc .vmem S256x4096 .bf16) (harg3 : arg3.IsWhole) (arg4 : Memref sig .tc .vmem S256x4096 .bf16) (harg4 : arg4.IsWhole) (arg5 : Memref sig .tc .vmem S4096x256 .bf16) (harg5 : arg5.IsWhole) (arg6 : Memref sig .tc .vmem S512x4096 .f32) (harg6 : arg6.IsWhole) (hc0 : cond0_0 i)
    (x : Vec Ideal S512x4096 .bf16) (wg wu : Vec Ideal S256x4096 .bf16) (wd : Vec Ideal S4096x256 .bf16) (p : Fin 512) (e : Fin 4096) :
    out0_A_4 (F := Ideal) c i arg2 harg2 arg3 harg3 arg4 harg4 arg5 harg5 arg6 harg6 hc0 x wg wu wd (ix2 p e) = 0 + term x wg wu wd p e := by
  unfold out0_A_4
  rw [View.read_writes_eq_canon _ _ _ (cover0_A_4 c i arg2 harg2 arg3 harg3 arg4 harg4 arg5 harg5 arg6 harg6 hc0 x wg wu wd)]
  unfold kernelRun0_A
  dsimp only
  sl_unfold_words
  simp only [View.readAt_eq_ld, harg2.read_unread, harg3.read_unread, harg4.read_unread, harg5.read_unread,
    View.ld_unit_zero (S := S512x4096) hz, View.ld_unit_zero (S := S256x4096) hz]
  rw [canon_halves, readBack_second, readBack_first]
  by_cases h : e.val < 2048
  · rw [dif_pos h]
    refine (first_of_loads x wg wu wd (k0_pay1 (F := Ideal)) p e h).trans ?_
    rw [zeros_apply]
  · rw [dif_neg h]
    refine (second_of_loads x wg wu wd (k0_pay1 (F := Ideal)) p e h).trans ?_
    rw [zeros_apply]

end Cert.KernelIdeal.StoreValue

end
-- ==== Proof.RunSum.lean ====
/-
  A run of 43 grid points adds up, in the output tile, to the layer's entries.

  Grid point `n` works on token tile `n / 43` and hidden run `n % 43`. Read off the arrays the region finds — the
  token matrix `X`, the gate and up weights `G`, `U`, the down weight `D` — its blocks are rows `512 · (n / 43) …` of
  `X`, rows `256 · (n % 43) …` of `G` and `U`, and columns `256 · (n % 43) …` of `D`; so its contribution to the output
  tile is the partial sum `tile` of the layer over that run of hidden features. The first point of a run leaves
  `0 + ` its contribution, every later one adds its own to what the point before left: after the last point of run
  `i` the tile holds `0 + ∑ j < 43, tile (43 · i + j)`, which is the layer's entry (the runs partition the hidden axis).
-/
import proofs.«175732_j59279138619703_2_alg».proof.Proof.StoreValue
import proofs.«175732_j59279138619703_2_alg».proof.Proof.LibResetChain

set_option maxRecDepth 16384

noncomputable section

namespace Cert.KernelIdeal.RunSum

open Idealize.ShloMosaic Idealize.ShloMosaic.TcCoe Idealize.SL.Sem Idealize.ShloMosaic.ValueIdx
open Cert.KernelIdeal Cert.KernelIdeal.Gen Cert.KernelIdeal.TileValue Cert.KernelIdeal.StoreValue Cert.GatedMlp

variable (m : (ℓ : Loc nD τ sig) → Buf (Elt Ideal) ℓ)

/-- The four arrays as the region finds them, read at natural coordinates. -/
def X (c : Dev nD) : ℕ → ℕ → EReal := rd (a := 4096) (b := 4096) (V m c main_call0_v1)
def G (c : Dev nD) : ℕ → ℕ → EReal := rd (a := 11008) (b := 4096) (V m c main_call0_v2)
def U (c : Dev nD) : ℕ → ℕ → EReal := rd (a := 11008) (b := 4096) (V m c main_call0_v3)
def D (c : Dev nD) : ℕ → ℕ → EReal := rd (a := 4096) (b := 11008) (V m c main_call0_v4)

/-- Where each window's block sits at grid point `t`: the token tile is `t / 43`, the hidden run `t % 43`. -/
theorem block_index : ∀ t : Fin cfg0.N,
    win0_0.index t (0 : Fin 2) = t.val / 43 ∧ win0_0.index t (1 : Fin 2) = 0
    ∧ win0_1.index t (0 : Fin 2) = t.val % 43 ∧ win0_1.index t (1 : Fin 2) = 0
    ∧ win0_2.index t (0 : Fin 2) = t.val % 43 ∧ win0_2.index t (1 : Fin 2) = 0
    ∧ win0_3.index t (0 : Fin 2) = 0 ∧ win0_3.index t (1 : Fin 2) = t.val % 43
    ∧ win0_4.index t (0 : Fin 2) = t.val / 43 ∧ win0_4.index t (1 : Fin 2) = 0 :=
  (by decide +kernel : ∀ t : Fin grid0.N, _)

theorem lt_344 (t : Fin cfg0.N) : t.val < 344 := lt_of_lt_of_eq t.isLt (show cfg0.N = 344 from N_0)

/-- The token tile of point `t` is rows `512 · (t / 43) …` of `X`. -/
theorem tokens_apply (c : Dev nD) (t : Fin cfg0.N) (p : Fin 512) (d : Fin 4096) :
    iblk m c 0 t (ix2 p d) = X m c (t.val / 43 * 512 + p.val) d.val := by
  have ht := lt_344 t
  obtain ⟨e0, e1, -⟩ := block_index t
  unfold X
  rw [rd_of_lt _ _ _ (by omega) d.isLt]
  unfold iblk
  rw [View.read_apply]
  show V m c main_call0_v1 _ = V m c main_call0_v1 _
  refine congrArg _ (funext fun a => Fin.ext ?_)
  match a with
  | ⟨0, _⟩ => show win0_0.index t (0 : Fin 2) * 512 + 1 * p.val = t.val / 43 * 512 + p.val; rw [e0]; omega
  | ⟨1, _⟩ => show win0_0.index t (1 : Fin 2) * 4096 + 1 * d.val = d.val; rw [e1]; omega

/-- The gate-weight tile of point `t` is rows `256 · (t % 43) …` of `G`. -/
theorem gate_apply (c : Dev nD) (t : Fin cfg0.N) (f : Fin 256) (d : Fin 4096) :
    iblk m c 1 t (ix2 f d) = G m c (t.val % 43 * 256 + f.val) d.val := by
  have ht := lt_344 t
  obtain ⟨-, -, e0, e1, -⟩ := block_index t
  unfold G
  rw [rd_of_lt _ _ _ (by omega) d.isLt]
  unfold iblk
  rw [View.read_apply]
  show V m c main_call0_v2 _ = V m c main_call0_v2 _
  refine congrArg _ (funext fun a => Fin.ext ?_)
  match a with
  | ⟨0, _⟩ => show win0_1.index t (0 : Fin 2) * 256 + 1 * f.val = t.val % 43 * 256 + f.val; rw [e0]; omega
  | ⟨1, _⟩ => show win0_1.index t (1 : Fin 2) * 4096 + 1 * d.val = d.val; rw [e1]; omega

/-- The up-weight tile of point `t` is rows `256 · (t % 43) …` of `U`. -/
theorem up_apply (c : Dev nD) (t : Fin cfg0.N) (f : Fin 256) (d : Fin 4096) :
    iblk m c 2 t (ix2 f d) = U m c (t.val % 43 * 256 + f.val) d.val := by
  have ht := lt_344 t
  obtain ⟨-, -, -, -, e0, e1, -⟩ := block_index t
  unfold U
  rw [rd_of_lt _ _ _ (by omega) d.isLt]
  unfold iblk
  rw [View.read_apply]
  show V m c main_call0_v3 _ = V m c main_call0_v3 _
  refine congrArg _ (funext fun a => Fin.ext ?_)
  match a with
  | ⟨0, _⟩ => show win0_2.index t (0 : Fin 2) * 256 + 1 * f.val = t.val % 43 * 256 + f.val; rw [e0]; omega
  | ⟨1, _⟩ => show win0_2.index t (1 : Fin 2) * 4096 + 1 * d.val = d.val; rw [e1]; omega

/-- The down-weight tile of point `t` is columns `256 · (t % 43) …` of `D`. -/
theorem down_apply (c : Dev nD) (t : Fin cfg0.N) (e : Fin 4096) (f : Fin 256) :
    iblk m c 3 t (ix2 e f) = D m c e.val (t.val % 43 * 256 + f.val) := by
  have ht := lt_344 t
  obtain ⟨-, -, -, -, -, -, e0, e1, -⟩ := block_index t
  unfold D
  rw [rd_of_lt _ _ _ e.isLt (by omega)]
  unfold iblk
  rw [View.read_apply]
  show V m c main_call0_v4 _ = V m c main_call0_v4 _
  refine congrArg _ (funext fun a => Fin.ext ?_)
  match a with
  | ⟨0, _⟩ => show win0_3.index t (0 : Fin 2) * 4096 + 1 * e.val = e.val; rw [e0]; omega
  | ⟨1, _⟩ => show win0_3.index t (1 : Fin 2) * 256 + 1 * f.val = t.val % 43 * 256 + f.val; rw [e1]; omega

/-- Point `t`'s contribution to entry `(p, e)` of its output tile is the layer's partial sum over its hidden run. -/
theorem term_eq_tile (c : Dev nD) (t : Fin cfg0.N) (p : Fin 512) (e : Fin 4096) :
    term (iblk m c 0 t) (iblk m c 1 t) (iblk m c 2 t) (iblk m c 3 t) p e
      = tile (X m c) (G m c) (U m c) (D m c) t.val p.val e.val := by
  unfold term tile
  refine Finset.sum_congr rfl fun f _ => ?_
  rw [down_apply]
  unfold TileValue.hidden hid proj
  simp only [tokens_apply, gate_apply, up_apply]

/-- Point `n`'s contribution, as a tile of values (zero past the grid). -/
def contrib (c : Dev nD) (n : ℕ) : S512x4096.Idx → EReal :=
  fun y => tile (X m c) (G m c) (U m c) (D m c) n (y 0).val (y 1).val

/-- What the output tile holds after point `n` (zero past the grid). -/
def held (c : Dev nD) (n : ℕ) : S512x4096.Idx → EReal :=
  if h : n < cfg0.N then outsAt0 m c n h else 0

/-- At the first point of a run the tile holds zero plus the point's contribution. -/
theorem held_first (c : Dev nD) (n : ℕ) (hn : n < 344) (h0 : n % 43 = 0) : held m c n = 0 + contrib m c n := by
  have hN : n < cfg0.N := lt_of_lt_of_eq hn (show cfg0.N = 344 from N_0).symm
  unfold held
  rw [dif_pos hN, outsAt0_A m c ⟨n, hN⟩ h0]
  funext y
  obtain ⟨p, e, rfl⟩ : ∃ (p : Fin 512) (e : Fin 4096), y = ix2 p e := ⟨y 0, y 1, eq_ix2 y⟩
  refine (out_A_apply c (grid0.coords ⟨n, hN⟩) (ms0_0 ⟨n, hN⟩) (hs0_0 ⟨n, hN⟩) (ms0_1 ⟨n, hN⟩) (hs0_1 ⟨n, hN⟩)
    (ms0_2 ⟨n, hN⟩) (hs0_2 ⟨n, hN⟩) (ms0_3 ⟨n, hN⟩) (hs0_3 ⟨n, hN⟩) (ms0_4 ⟨n, hN⟩) (hs0_4 ⟨n, hN⟩)
    ((hcond0_0 ⟨n, hN⟩).mpr h0) (iblk m c 0 ⟨n, hN⟩) (iblk m c 1 ⟨n, hN⟩) (iblk m c 2 ⟨n, hN⟩) (iblk m c 3 ⟨n, hN⟩) p e).trans ?_
  exact congrArg ((0 : EReal) + ·) (term_eq_tile m c ⟨n, hN⟩ p e)

/-- At every other point it holds what the point before left plus the point's contribution. -/
theorem held_next (c : Dev nD) (n : ℕ) (hn : n < 344) (h0 : n % 43 ≠ 0) :
    held m c n = held m c (n - 1) + contrib m c n := by
  have hN : n < cfg0.N := lt_of_lt_of_eq hn (show cfg0.N = 344 from N_0).symm
  have hN' : n - 1 < cfg0.N := Nat.lt_of_le_of_lt (Nat.sub_le _ _) hN
  unfold held
  rw [dif_pos hN, dif_pos hN', outsAt0_B m c ⟨n, hN⟩ h0]
  funext y
  obtain ⟨p, e, rfl⟩ : ∃ (p : Fin 512) (e : Fin 4096), y = ix2 p e := ⟨y 0, y 1, eq_ix2 y⟩
  refine (out_B_apply c (grid0.coords ⟨n, hN⟩) (ms0_0 ⟨n, hN⟩) (hs0_0 ⟨n, hN⟩) (ms0_1 ⟨n, hN⟩) (hs0_1 ⟨n, hN⟩)
    (ms0_2 ⟨n, hN⟩) (hs0_2 ⟨n, hN⟩) (ms0_3 ⟨n, hN⟩) (hs0_3 ⟨n, hN⟩) (ms0_4 ⟨n, hN⟩) (hs0_4 ⟨n, hN⟩)
    (fun h => h0 ((hcond0_0 ⟨n, hN⟩).mp h)) (iblk m c 0 ⟨n, hN⟩) (iblk m c 1 ⟨n, hN⟩) (iblk m c 2 ⟨n, hN⟩) (iblk m c 3 ⟨n, hN⟩)
    (outsAt0 m c (n - 1) hN') p e).trans ?_
  exact congrArg (outsAt0 m c (n - 1) hN' (ix2 p e) + ·) (term_eq_tile m c ⟨n, hN⟩ p e)

/-- AFTER THE LAST POINT OF RUN `i` the output tile holds, at `(p, e)`, the layer's entry at token `512 · i + p`. -/
theorem held_last (c : Dev nD) (i : ℕ) (hi : i < 8) (p : Fin 512) (e : Fin 4096) :
    held m c (43 * i + 42) (ix2 p e) = full (X m c) (G m c) (U m c) (D m c) (i * 512 + p.val) e.val := by
  rw [LibResetChain.chain_run_end 43 (by norm_num) (held m c) (contrib m c) 0 344 (held_first m c) (held_next m c) i
    (by omega)]
  show (0 : EReal) + (∑ j ∈ Finset.range 43, contrib m c (43 * i + j)) (ix2 p e) = _
  rw [Finset.sum_apply, zero_add]
  exact sum_tiles (X m c) (G m c) (U m c) (D m c) i p.val e.val

end Cert.KernelIdeal.RunSum

end
-- ==== Proof.ArrayValue.lean ====
/-
  The output array after the run, and the kernel's result.

  The output window's block at grid point `t` is token tile `t / 43` (all 4096 columns), written back at the last
  point of each run, `t % 43 = 42`; what is written back is, entry by entry, the layer's value (the run's 43 partial
  sums added up). The eight written-back tiles cover the 4096 × 4096 array, so after the run it holds the layer's value
  `full X G U D` at every entry; the one host operation after the region reshapes it to 2 × 2048 × 4096. The arrays the
  region finds are the arguments: `X` is the first argument reshaped to 4096 × 4096, the three weights are the other
  arguments, each after a change of float format, which is the identity on the extended reals.
-/
import proofs.«175732_j59279138619703_2_alg».proof.Proof.RunSum
import Idealize.ShloMosaic.Lib.StableHlo.Run

set_option maxRecDepth 16384

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.RunSum Cert.GatedMlp

variable (m : (ℓ : Loc nD τ sig) → Buf (Elt Ideal) ℓ) (ρ : Dev nD → PrngReg)

/-- The layer's value over the 4096 × 4096 output array, from the arrays the region finds. -/
def layer (c : Dev nD) : S4096x4096.Idx → EReal :=
  fun z => full (X m c) (G m c) (U m c) (D m c) (z 0).val (z 1).val

/-- The output tile after the last point of a run: the layer's entries of its token tile. -/
theorem held_flush (c : Dev nD) (n : ℕ) (hn : n < 344) (h : n % 43 = 42) (p : Fin 512) (e : Fin 4096) :
    held m c n (ix2 p e) = full (X m c) (G m c) (U m c) (D m c) (n / 43 * 512 + p.val) e.val := by
  have hl := held_last m c (n / 43) (by omega) p e
  rwa [show 43 * (n / 43) + 42 = n by omega] at hl

/-- WHAT A WRITE-BACK WRITES is its block of the layer's value. -/
theorem flushed_eq (c : Dev nD) (t : Fin cfg0.N) (hf : (cfg0.win 4).flush t = true) :
    (dats m 0 c).flushed 4 t = ((cfg0.win 4).blk t).view.read (Elt Ideal) (layer m c) := by
  have ht := lt_344 t
  have h42 : t.val % 43 = 42 := (flush0_4 t).mp hf
  obtain ⟨-, -, -, -, -, -, -, -, e0, e1⟩ := block_index t
  show (cfg0.win 4).cut (grid0.coords t) ((dats m 0 c).after 4 t) = _
  rw [after0_4]
  funext y
  obtain ⟨p, e, rfl⟩ : ∃ (p : Fin 512) (e : Fin 4096), y = ix2 p e := ⟨y 0, y 1, eq_ix2 y⟩
  rw [View.read_apply]
  refine ((congrFun (show held m c t.val = outsAt0 m c t.val t.isLt from dif_pos t.isLt) (ix2 p e)).symm.trans
    (held_flush m c t.val ht h42 p e)).trans ?_
  show full _ _ _ _ (t.val / 43 * 512 + p.val) e.val
    = full _ _ _ _ (win0_4.index t (0 : Fin 2) * 512 + 1 * p.val) (win0_4.index t (1 : Fin 2) * 4096 + 1 * e.val)
  rw [e0, e1, Nat.one_mul, Nat.one_mul, Nat.zero_mul, Nat.zero_add]

/-- An index of the array is in point `t`'s block iff each coordinate is in the block's range on its axis. -/
theorem mem_blk (t : Fin cfg0.N) (z : S4096x4096.Idx) :
    z ∈ ((cfg0.win 4).blk t).view.set ↔ ∀ a : Fin 2, win0_4.index t a * S512x4096.size a ≤ (z a).val
      ∧ (z a).val < win0_4.index t a * S512x4096.size a + S512x4096.size a := by
  show z ∈ ((View.whole main_call0_v5).slice (win0_4.rect t)).set ↔ _
  rw [View.set_slice_whole, Rect.mem_set_unit]
  exact Iff.rfl

/-- Every entry of the array lies in the tile some run's last point writes back. -/
theorem covered (z : S4096x4096.Idx) :
    ∃ t : Fin cfg0.N, (cfg0.win 4).flush t = true ∧ z ∈ ((cfg0.win 4).blk t).view.set := by
  have hz0 : (z 0).val < 4096 := (z 0).isLt
  have hz1 : (z 1).val < 4096 := (z 1).isLt
  have hN : 43 * ((z 0).val / 512) + 42 < cfg0.N := by rw [show cfg0.N = 344 from N_0]; omega
  refine ⟨⟨43 * ((z 0).val / 512) + 42, hN⟩, (flush0_4 _).mpr (by show (43 * ((z 0).val / 512) + 42) % 43 = 42; omega), ?_⟩
  obtain ⟨-, -, -, -, -, -, -, -, e0, e1⟩ := block_index ⟨43 * ((z 0).val / 512) + 42, hN⟩
  have e0' : win0_4.index ⟨43 * ((z 0).val / 512) + 42, hN⟩ (0 : Fin 2) = (z 0).val / 512 := by
    rw [e0]; show (43 * ((z 0).val / 512) + 42) / 43 = (z 0).val / 512; omega
  rw [mem_blk]
  intro a
  match a with
  | ⟨0, _⟩ =>
    show win0_4.index ⟨43 * ((z 0).val / 512) + 42, hN⟩ (0 : Fin 2) * 512 ≤ (z 0).val
      ∧ (z 0).val < win0_4.index ⟨43 * ((z 0).val / 512) + 42, hN⟩ (0 : Fin 2) * 512 + 512
    rw [e0']; omega
  | ⟨1, _⟩ =>
    show win0_4.index ⟨43 * ((z 0).val / 512) + 42, hN⟩ (1 : Fin 2) * 4096 ≤ (z 1).val
      ∧ (z 1).val < win0_4.index ⟨43 * ((z 0).val / 512) + 42, hN⟩ (1 : Fin 2) * 4096 + 4096
    rw [e1]; omega

/-- THE OUTPUT ARRAY after the run holds the layer's value. -/
theorem final (c : Dev nD) : (dats m 0 c).arrAt 4 cfg0.N = layer m c :=
  (dats m 0 c).arrAt_eq_of_cover 4 (layer m c) (flushed_eq m c) covered

/-! ## The arrays the region finds are the arguments -/

/-- The token matrix is the first argument reshaped (the change of float format is the identity here). -/
theorem X_eq (c : Dev nD) :
    X m c = rd (a := 4096) (b := 4096)
      (shapeCast S4096x4096 (m ((c.tc : Thread nD τ).loc main_arg0)) shapeCasts_S2x2048x4096_S4096x4096) := by
  unfold X
  have e : (V m c main_call0_v1 : S4096x4096.Idx → EReal)
      = shapeCast S4096x4096 (m ((c.tc : Thread nD τ).loc main_arg0)) shapeCasts_S2x2048x4096_S4096x4096 := by
    show StableHlo.after hostOps0 (fun b => m (c, b)) (Proc.devRef .tc main_call0_v1) = _
    after_results
    rfl
  rw [e]

/-- The gate weight is the second argument. -/
theorem G_eq (c : Dev nD) : G m c = rd (a := 11008) (b := 4096) (m ((c.tc : Thread nD τ).loc main_arg1)) := by
  unfold G
  have e : (V m c main_call0_v2 : S11008x4096.Idx → EReal) = m ((c.tc : Thread nD τ).loc main_arg1) := by
    show StableHlo.after hostOps0 (fun b => m (c, b)) (Proc.devRef .tc main_call0_v2) = _
    after_results
    rfl
  rw [e]

/-- The up weight is the third argument. -/
theorem U_eq (c : Dev nD) : U m c = rd (a := 11008) (b := 4096) (m ((c.tc : Thread nD τ).loc main_arg2)) := by
  unfold U
  have e : (V m c main_call0_v3 : S11008x4096.Idx → EReal) = m ((c.tc : Thread nD τ).loc main_arg2) := by
    show StableHlo.after hostOps0 (fun b => m (c, b)) (Proc.devRef .tc main_call0_v3) = _
    after_results
    rfl
  rw [e]

/-- The down weight is the fourth argument. -/
theorem D_eq (c : Dev nD) : D m c = rd (a := 4096) (b := 11008) (m ((c.tc : Thread nD τ).loc main_arg3)) := by
  unfold D
  have e : (V m c main_call0_v4 : S4096x11008.Idx → EReal) = m ((c.tc : Thread nD τ).loc main_arg3) := by
    show StableHlo.after hostOps0 (fun b => m (c, b)) (Proc.devRef .tc main_call0_v4) = _
    after_results
    rfl
  rw [e]

/-- The layer's value as a function of the four argument arrays. -/
def result (x0 : S2x2048x4096.Idx → EReal) (x1 x2 : S11008x4096.Idx → EReal) (x3 : S4096x11008.Idx → EReal) :
    S2x2048x4096.Idx → EReal :=
  shapeCast S2x2048x4096
    (fun z : S4096x4096.Idx => full (rd (a := 4096) (b := 4096) (shapeCast S4096x4096 x0 shapeCasts_S2x2048x4096_S4096x4096))
      (rd (a := 11008) (b := 4096) x1) (rd (a := 11008) (b := 4096) x2) (rd (a := 4096) (b := 11008) x3) (z 0).val (z 1).val)
    shapeCasts_S4096x4096_S2x2048x4096

/-- The kernel's result buffer: the one host operation after the region reshapes the output array. -/
theorem tail_value (c : Dev nD) :
    Pipeline.afterTail₀ cfgs (dats m) 0 (V0 m) [hostOps1] c main_v0
      = result (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v0) = _
  after_results
  have hw : Pipeline.withArrays spec0 c (V0 m c) (fun w => (dats m 0 c).arrAt w cfg0.N)
      (Proc.devRef .tc (Pipeline.arrRef spec0 4)) = layer m c :=
    (Pipeline.withArrays_arr spec0 launch0.win.arr_inj c (V0 m c) (fun w => (dats m 0 c).arrAt w cfg0.N) 4).trans (final m c)
  show shapeCast S2x2048x4096 (Pipeline.withArrays spec0 c (V0 m c) (fun w => (dats m 0 c).arrAt w cfg0.N)
      (Proc.devRef .tc (Pipeline.arrRef spec0 4))) shapeCasts_S4096x4096_S2x2048x4096 = _
  rw [hw]
  unfold result layer
  rw [X_eq, G_eq, U_eq, D_eq]

/-- THE KERNEL'S RUN, READ: every weakly fair execution ends with the result buffer at the layer's value of the four
    arguments, and the arguments as they were. -/
theorem run : θ_run defs (onTc (τ := τ) (main (F := Ideal))) ⟨m, fun _ => 0, ρ⟩ fun r => ∀ c : Dev nD,
      r.2.mem ((c.tc : Thread nD τ).loc main_v0) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v0 (Pipeline.mem_restRefs_of main_v0 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.ArrayValue

end
-- ==== Proof.RefValue.lean ====
/-
  The reference computes the same layer.

  Read one operation at a time, the reference's matrix before its last reshape has, at token `t` and output feature
  `e`, the entry `∑ f, (g · (1 / (1 + exp (-g)))) · u · W_down[e, f]` with `g`, `u` the gate and up projections of row
  `t` of the reshaped input: on the extended reals `1 / (1 + exp (-g))` IS the logistic function, so this is the
  layer's entry `full` of the four matrices read at natural coordinates.
-/
import proofs.«175732_j59279138619703_2_alg».proof.Proof.Gen.ReferenceIdeal.Read
import proofs.«175732_j59279138619703_2_alg».proof.Proof.GatedSum
import Idealize.ShloMosaic.Lib.IdealHost

noncomputable section

namespace Cert.ReferenceIdeal.RefValue

open Idealize.ShloMosaic Idealize.ShloMosaic.ValueIdx Cert.ReferenceIdeal Cert.ReferenceIdeal.Read Cert.GatedMlp

/-- A matrix at one of its indices is its reading at the index's coordinates. -/
theorem rd_idx {a b : ℕ} (A : (⟨2, ![a, b]⟩ : Shape).Idx → EReal) (i : (⟨2, ![a, b]⟩ : Shape).Idx) :
    rd A (i 0).val (i 1).val = A i :=
  (rd_ix2 A (i 0) (i 1)).trans (congrArg A (eq_ix2 i).symm)

/-- The reference's matrix, before the last reshape, is the layer's value of the reshaped input and the weights. -/
theorem matrix_eq (x0 : (⟨S2x2048x4096, .f32⟩ : BufTy).Contents (Elt Ideal))
    (x1 x2 : (⟨S11008x4096, .f32⟩ : BufTy).Contents (Elt Ideal)) (x3 : (⟨S4096x11008, .f32⟩ : BufTy).Contents (Elt Ideal))
    (z : S4096x4096.Idx) :
    val_main_v5 (F := Ideal) x0 x1 x2 x3 z
      = full (rd (a := 4096) (b := 4096) (val_main_v0 (F := Ideal) x0)) (rd (a := 11008) (b := 4096) x1)
          (rd (a := 11008) (b := 4096) x2) (rd (a := 4096) (b := 11008) x3) (z 0).val (z 1).val := by
  rw [val_main_v5_apply]
  unfold full
  refine Finset.sum_congr rfl fun f _ => ?_
  have h3 : x3 (ridx_main_v5 z f) = rd (a := 4096) (b := 11008) x3 (z 1).val f.val :=
    (rd_idx (a := 4096) (b := 11008) x3 (ridx_main_v5 z f)).symm
  have hg : val_main_v2 (F := Ideal) x0 x1 (lidx_main_v5 z f)
      = proj (rd (a := 4096) (b := 4096) (val_main_v0 (F := Ideal) x0)) (rd (a := 11008) (b := 4096) x1) (z 0).val f.val := by
    rw [val_main_v2_apply]
    exact Finset.sum_congr rfl fun k _ => congrArg₂ (· * ·)
      (rd_idx (a := 4096) (b := 4096) (val_main_v0 (F := Ideal) x0) (lidx_main_v2 (lidx_main_v5 z f) k)).symm
      (rd_idx (a := 11008) (b := 4096) x1 (ridx_main_v2 (lidx_main_v5 z f) k)).symm
  have hu : val_main_v1 (F := Ideal) x0 x2 (lidx_main_v5 z f)
      = proj (rd (a := 4096) (b := 4096) (val_main_v0 (F := Ideal) x0)) (rd (a := 11008) (b := 4096) x2) (z 0).val f.val := by
    rw [val_main_v1_apply]
    exact Finset.sum_congr rfl fun k _ => congrArg₂ (· * ·)
      (rd_idx (a := 4096) (b := 4096) (val_main_v0 (F := Ideal) x0) (lidx_main_v1 (lidx_main_v5 z f) k)).symm
      (rd_idx (a := 11008) (b := 4096) x2 (ridx_main_v1 (lidx_main_v5 z f) k)).symm
  rw [h3, val_main_v4_apply, val_main_v3_apply, val_main_call0_v5_apply, val_main_call0_v4_apply,
    val_main_call0_cst_0_apply, val_main_call0_v3_apply, val_main_call0_v2_apply, val_main_call0_cst_apply,
    val_main_call0_v1_apply, val_main_call0_v0_apply, hg, hu]
  simp only [Ideal.mulf_def, Ideal.hostDivf_def, Ideal.addf_def, Ideal.hostUnary_exp_def, Ideal.hostNegf_def,
    Ideal.negf_def, Ideal.ofBits_def, Ideal.ofBits_one_f32]
  rfl

end Cert.ReferenceIdeal.RefValue

end
-- ==== Proof.lean ====
/-
  A gated feed-forward layer — `y = (silu(x·W_gateᵀ) ⊙ (x·W_upᵀ))·W_downᵀ` over 4096 tokens, 4096 model features and
  11008 hidden features — computed by a kernel that tiles the tokens by 512 and the hidden axis by 256 and accumulates
  the 43 hidden runs of a token tile in its output block, against the plain three-product reference.

  Over the extended reals both programs compute, at token `t` and output feature `e`,

      ∑ f < 11008,  (g · σ(g)) · u · W_down[e, f],    g = ∑ d, x[t, d] · W_gate[f, d],   u = ∑ d, x[t, d] · W_up[f, d]:

  the changes of float format are the identity, the logistic function and `1 / (1 + exp (-g))` are one function, a
  product into a zero accumulator is the plain sum, and the kernel's 43 partial sums over runs of 256 hidden features,
  added one after the other onto zero, are the sum over all 11008 (addition of extended reals is associative and
  commutative; no finiteness of the inputs is used). The modules: `GatedSum` (the layer as sums, and the runs adding
  up), `TileValue` (the kernel body's arithmetic at an entry), `StoreValue` (what one grid point leaves in the output
  tile), `RunSum` (a run's points add up to the layer's entries), `ArrayValue` (the output array and the kernel's
  result), `RefValue` (the reference is the same sum). The idealized kernel is the kernel's own text read over the extended reals, so `preserves` has nothing to state.
-/
import proofs.«175732_j59279138619703_2_alg».proof.Defs
import proofs.«175732_j59279138619703_2_alg».proof.Proof.Gen.Kernel
import proofs.«175732_j59279138619703_2_alg».proof.Proof.Gen.Kernel.Frame
import proofs.«175732_j59279138619703_2_alg».proof.Proof.Gen.KernelIdeal
import proofs.«175732_j59279138619703_2_alg».proof.Proof.Gen.KernelIdeal.Frame
import proofs.«175732_j59279138619703_2_alg».proof.Proof.Gen.ReferenceIdeal
import proofs.«175732_j59279138619703_2_alg».proof.Proof.Gen.Pre_finite_inputs
import proofs.«175732_j59279138619703_2_alg».proof.Proof.Gen.ReferenceIdeal.Run
import proofs.«175732_j59279138619703_2_alg».proof.Proof.Gen.ReferenceIdeal.Read
import proofs.«175732_j59279138619703_2_alg».proof.Proof.ArrayValue
import proofs.«175732_j59279138619703_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame is its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the layer's value of arguments that agree: the kernel's result array is it by its run read
    back, the reference's matrix is it entry by entry, and both reshape it the same way. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  refine (Cert.ReferenceIdeal.Read.val_main_v6_eq _ _ _ _).trans ?_
  unfold Cert.ReferenceIdeal.Read.val_main_v6 Cert.KernelIdeal.ArrayValue.result
  exact congrArg (fun y => shapeCast _ y _) (funext fun z => Cert.ReferenceIdeal.RefValue.matrix_eq _ _ _ _ z)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
